-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64x64 : Shape := ⟨4, ![16, 2048, 64, 64]⟩
abbrev S256x2048 : Shape := ⟨2, ![256, 2048]⟩
abbrev S256 : Shape := ⟨1, ![256]⟩
abbrev S_ : Shape := ⟨0, ![]⟩

class Facts : Prop where
  bcast_S_S16x2048x64x64 : S_.BroadcastsInDim S16x2048x64x64 (![] : Fin 0 → Fin S16x2048x64x64.rank)
  reducesTo_S16x2048x64x64_S_d0_1_2_3 : S16x2048x64x64.ReducesTo [0, 1, 2, 3] S_
  h_S_ : 0 < S_.numel
  bcast_S_S256x2048 : S_.BroadcastsInDim S256x2048 (![] : Fin 0 → Fin S256x2048.rank)
  reducesTo_S256x2048_S_d0_1 : S256x2048.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S16x2048x64x64 .f32) (main_arg1 : FVec F S256x2048 .f32) (main_arg2 : FVec F S256 .f32) (main_arg3 : FVec F S256 .f32) : IVec S_ 1 :=
  let main_v0 : FVec F S16x2048x64x64 .f32 := Host.absf main_arg0
  let main_cst : FVec F S_ .f32 := constant S_ .f32 0x7F800000#32
  let main_v1 : FVec F S16x2048x64x64 .f32 := broadcastInDim S16x2048x64x64 ![] bcast_S_S16x2048x64x64 main_cst
  let main_v2 : IVec S16x2048x64x64 1 := cmpf .olt main_v0 main_v1
  let main_c : IVec S_ 1 := constantI S_ 1 1#1
  let main_v3 : IVec S_ 1 := (fun x v => Host.reduce IntOp.andi x v reducesTo_S16x2048x64x64_S_d0_1_2_3 h_S_) main_v2 main_c
  let main_v4 : FVec F S256x2048 .f32 := Host.absf main_arg1
  let main_cst_0 : FVec F S_ .f32 := constant S_ .f32 0x7F800000#32
  let main_v5 : FVec F S256x2048 .f32 := broadcastInDim S256x2048 ![] bcast_S_S256x2048 main_cst_0
  let main_v6 : IVec S256x2048 1 := cmpf .olt main_v4 main_v5
  let main_c_1 : IVec S_ 1 := constantI S_ 1 1#1
  let main_v7 : IVec S_ 1 := (fun x v => Host.reduce IntOp.andi x v reducesTo_S256x2048_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S16x2048x64x64 : Shape := ⟨4, ![16, 2048, 64, 64]⟩
abbrev S256x2048 : Shape := ⟨2, ![256, 2048]⟩
abbrev S256 : Shape := ⟨1, ![256]⟩
abbrev S16x1x2048 : Shape := ⟨3, ![16, 1, 2048]⟩
abbrev S1x512x64x64 : Shape := ⟨4, ![1, 512, 64, 64]⟩
abbrev S1x1x512 : Shape := ⟨3, ![1, 1, 512]⟩
abbrev S512x64x64 : Shape := ⟨3, ![512, 64, 64]⟩
abbrev S512x64 : Shape := ⟨2, ![512, 64]⟩
abbrev S512 : Shape := ⟨1, ![512]⟩
abbrev S1x512 : Shape := ⟨2, ![1, 512]⟩
abbrev S16x2048 : Shape := ⟨2, ![16, 2048]⟩
abbrev S16x256 : Shape := ⟨2, ![16, 256]⟩
abbrev S16x32x8 : Shape := ⟨3, ![16, 32, 8]⟩
abbrev S_ : Shape := ⟨0, ![]⟩
abbrev S16x32 : Shape := ⟨2, ![16, 32]⟩
abbrev S16x32x1 : Shape := ⟨3, ![16, 32, 1]⟩
abbrev S1x256 : Shape := ⟨2, ![1, 256]⟩
abbrev S16x256x64x64 : Shape := ⟨4, ![16, 256, 64, 64]⟩
abbrev S1x256x64x64 : Shape := ⟨4, ![1, 256, 64, 64]⟩
abbrev S256x1x1 : Shape := ⟨3, ![256, 1, 1]⟩
abbrev S256x64x64 : Shape := ⟨3, ![256, 64, 64]⟩

abbrev nBuf : Space → Nat
  | .hbm => 57
  | .vmem => 7
  | .smem => 0
  | _ => 0

abbrev bufTy : (tb : Table) → Fin (tcTables nBuf tb) → BufTy
  | .hbm, ⟨0, _⟩ => ⟨S16x2048x64x64, .f32⟩
  | .hbm, ⟨1, _⟩ => ⟨S256x2048, .f32⟩
  | .hbm, ⟨2, _⟩ => ⟨S256, .f32⟩
  | .hbm, ⟨3, _⟩ => ⟨S256, .f32⟩
  | .hbm, ⟨4, _⟩ => ⟨S16x1x2048, .f32⟩
  | .hbm, ⟨5, _⟩ => ⟨S16x2048, .f32⟩
  | .hbm, ⟨6, _⟩ => ⟨S16x256, .f32⟩
  | .hbm, ⟨7, _⟩ => ⟨S16x32x8, .f32⟩
  | .hbm, ⟨8, _⟩ => ⟨S_, .f32⟩
  | .hbm, ⟨9, _⟩ => ⟨S16x32, .f32⟩
  | .hbm, ⟨10, _⟩ => ⟨S16x32x1, .f32⟩
  | .hbm, ⟨11, _⟩ => ⟨S_, .f32⟩
  | .hbm, ⟨12, _⟩ => ⟨S16x32x1, .f32⟩
  | .hbm, ⟨13, _⟩ => ⟨S16x32x1, .f32⟩
  | .hbm, ⟨14, _⟩ => ⟨S_, .i32⟩
  | .hbm, ⟨15, _⟩ => ⟨S_, .f32⟩
  | .hbm, ⟨16, _⟩ => ⟨S16x32, .f32⟩
  | .hbm, ⟨17, _⟩ => ⟨S16x32x1, .f32⟩
  | .hbm, ⟨18, _⟩ => ⟨S_, .f32⟩
  | .hbm, ⟨19, _⟩ => ⟨S16x32x1, .f32⟩
  | .hbm, ⟨20, _⟩ => ⟨S16x32x1, .f32⟩
  | .hbm, ⟨21, _⟩ => ⟨S16x32x8, .f32⟩
  | .hbm, ⟨22, _⟩ => ⟨S16x32x8, .f32⟩
  | .hbm, ⟨23, _⟩ => ⟨S16x32x8, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S16x32, .f32⟩
  | .hbm, ⟨29, _⟩ => ⟨S16x32x1, .f32⟩
  | .hbm, ⟨30, _⟩ => ⟨S16x32x1, .f32⟩
  | .hbm, ⟨31, _⟩ => ⟨S16x32x1, .f32⟩
  | .hbm, ⟨32, _⟩ => ⟨S_, .f32⟩
  | .hbm, ⟨33, _⟩ => ⟨S_, .i1⟩
  | .hbm, ⟨34, _⟩ => ⟨S_, .f32⟩
  | .hbm, ⟨35, _⟩ => ⟨S_, .f32⟩
  | .hbm, ⟨36, _⟩ => ⟨S16x32x1, .f32⟩
  | .hbm, ⟨37, _⟩ => ⟨S16x32x1, .f32⟩
  | .hbm, ⟨38, _⟩ => ⟨S16x32x8, .f32⟩
  | .hbm, ⟨39, _⟩ => ⟨S16x32x8, .f32⟩
  | .hbm, ⟨40, _⟩ => ⟨S_, .f32⟩
  | .hbm, ⟨41, _⟩ => ⟨S16x32x1, .f32⟩
  | .hbm, ⟨42, _⟩ => ⟨S16x32x1, .f32⟩
  | .hbm, ⟨43, _⟩ => ⟨S16x32x1, .f32⟩
  | .hbm, ⟨44, _⟩ => ⟨S16x32x8, .f32⟩
  | .hbm, ⟨45, _⟩ => ⟨S16x32x8, .f32⟩
  | .hbm, ⟨46, _⟩ => ⟨S16x256, .f32⟩
  | .hbm, ⟨47, _⟩ => ⟨S1x256, .f32⟩
  | .hbm, ⟨48, _⟩ => ⟨S16x256, .f32⟩
  | .hbm, ⟨49, _⟩ => ⟨S16x256, .f32⟩
  | .hbm, ⟨50, _⟩ => ⟨S1x256, .f32⟩
  | .hbm, ⟨51, _⟩ => ⟨S16x256, .f32⟩
  | .hbm, ⟨52, _⟩ => ⟨S16x256, .f32⟩
  | .hbm, ⟨53, _⟩ => ⟨S_, .f32⟩
  | .hbm, ⟨54, _⟩ => ⟨S16x256, .f32⟩
  | .hbm, ⟨55, _⟩ => ⟨S16x256, .f32⟩
  | .hbm, ⟨56, _⟩ => ⟨S16x256x64x64, .f32⟩
  | .local _ .vmem, ⟨0, _⟩ => ⟨S1x512x64x64, .f32⟩
  | .local _ .vmem, ⟨1, _⟩ => ⟨S1x512x64x64, .f32⟩
  | .local _ .vmem, ⟨2, _⟩ => ⟨S1x1x512, .f32⟩
  | .local _ .vmem, ⟨3, _⟩ => ⟨S1x1x512, .f32⟩
  | .local _ .vmem, ⟨4, _⟩ => ⟨S16x256, .f32⟩
  | .local _ .vmem, ⟨5, _⟩ => ⟨S1x256x64x64, .f32⟩
  | .local _ .vmem, ⟨6, _⟩ => ⟨S1x256x64x64, .f32⟩
  | _, _ => ⟨S16x2048x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_cst_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_cst_1 : Ref sig .tc := ⟨.hbm, 25, rfl⟩
abbrev main_call0_v8 : Ref sig .tc := ⟨.hbm, 26, rfl⟩
abbrev main_call0_cst_2 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_cst_3 : Ref sig .tc := ⟨.hbm, 32, rfl⟩
abbrev main_call0_v13 : Ref sig .tc := ⟨.hbm, 33, rfl⟩
abbrev main_call0_cst_4 : Ref sig .tc := ⟨.hbm, 34, rfl⟩
abbrev main_call0_call0_v0 : Ref sig .tc := ⟨.hbm, 35, rfl⟩
abbrev main_call0_call0_v1 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_cst_1 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_cst_2 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg1_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem1_1 : DmaSem sig := 6

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨1, ![16], ![false]⟩

def k1_off1 (i : grid1.Coords) : Fin 2 → Nat :=
  let arg0 : BitVec 32 := BitVec.ofNat 32 (i 0).val
  let v0 : Index := Scalar.indexCast arg0
  let c0 : Index := 0#32
  ![v0.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 1 → Memref sig .tc .vmem S16x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x256x64x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  inb_S1x512x64x64_S1x512x64x64_0_0_0_0 : ∀ a, (![0, 0, 0, 0] : Fin 4 → Nat) a + S1x512x64x64.size a ≤ S1x512x64x64.size a
  h_S1x512x64x64 : 0 < S1x512x64x64.numel
  shapeCasts_S1x512x64x64_S512x64x64 : S1x512x64x64.ShapeCasts S512x64x64
  reduces_S512x64x64_S512x64 : S512x64x64.Reduces [2] S512x64
  reduces_S512x64_S512 : S512x64.Reduces [1] S512
  shapeCasts_S512_S1x512 : S512.ShapeCasts S1x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  shapeCasts_S16x1x2048_S16x2048 : S16x1x2048.ShapeCasts S16x2048
  shapeCasts_S16x256_S16x32x8 : S16x256.ShapeCasts S16x32x8
  reducesTo_S16x32x8_S16x32_d2 : S16x32x8.ReducesTo [2] S16x32
  h_S_ : 0 < S_.numel
  bcast_S16x32_S16x32x1_0_1 : S16x32.BroadcastsInDim S16x32x1 (![0, 1] : Fin 2 → Fin S16x32x1.rank)
  bcast_S_S16x32x1 : S_.BroadcastsInDim S16x32x1 (![] : Fin 0 → Fin S16x32x1.rank)
  bcast_S16x32x1_S16x32x8_0_1_2 : S16x32x1.BroadcastsInDim S16x32x8 (![0, 1, 2] : Fin 3 → Fin S16x32x8.rank)
  shapeCasts_S16x32x8_S16x256 : S16x32x8.ShapeCasts S16x256
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  bcast_S_S16x256 : S_.BroadcastsInDim S16x256 (![] : Fin 0 → Fin S16x256.rank)
  h_S1x256 : 0 < S1x256.numel
  shapeCasts_S1x256_S256 : S1x256.ShapeCasts S256
  shapeCasts_S256_S256x1x1 : S256.ShapeCasts S256x1x1
  shapeCasts_S256x1x1_S256x1x1 : S256x1x1.ShapeCasts S256x1x1
  broadcasts_S256x1x1_S256x64x64 : S256x1x1.Broadcasts S256x64x64
  inb_S1x256x64x64_S1x256x64x64_0_0_0_0 : ∀ a, (![0, 0, 0, 0] : Fin 4 → Nat) a + S1x256x64x64.size a ≤ S1x256x64x64.size a
  h_S1x256x64x64 : 0 < S1x256x64x64.numel
  shapeCasts_S1x256x64x64_S256x64x64 : S1x256x64x64.ShapeCasts S256x64x64
  shapeCasts_S256x64x64_S1x256x64x64 : S256x64x64.ShapeCasts S1x256x64x64
  dot_S16x2048_S256x2048_S16x256_1_1_0_0_n_n_wf : DotDims.WF S16x2048 S256x2048 S16x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64x64.size a ≤ S16x2048x64x64.size a
  hwx0_0 : ∀ i : grid0.Coords, EltTy.bits .f32 = 32 ∨ (Rect.block (s := S16x2048x64x64) S1x512x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S16x1x2048.size a
  hwx0_1 : ∀ i : grid0.Coords, EltTy.bits .f32 = 32 ∨ (Rect.block (s := S16x1x2048) S1x1x512.size (cc0_transform_1 i) (hinb0_1 i)).WholeWords (EltTy.packing .f32)
  hrank1 : 0 < grid1.rank
  k1_off1_inb : ∀ i : grid1.Coords, ∀ a, (k1_off1 i) a + S1x256.size a ≤ S16x256.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S16x256.size a ≤ S16x256.size a
  hwx1_0 : ∀ i : grid1.Coords, EltTy.bits .f32 = 32 ∨ (Rect.block (s := S16x256) S16x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x64x64.size a ≤ S16x256x64x64.size a
  hwx1_1 : ∀ i : grid1.Coords, EltTy.bits .f32 = 32 ∨ (Rect.block (s := S16x256x64x64) S1x256x64x64.size (cc1_transform_1 i) (hinb1_1 i)).WholeWords (EltTy.packing .f32)

variable [Facts₀]

def dot_S16x2048_S256x2048_S16x256_1_1_0_0_n_n : DotDims S16x2048 S256x2048 S16x256 where
  lhsContracting := [1]
  rhsContracting := [1]
  lhsNonContracting := [0]
  rhsNonContracting := [0]
  lhsBatch := []
  rhsBatch := []
  wf := dot_S16x2048_S256x2048_S16x256_1_1_0_0_n_n_wf

abbrev win0_0 : Pipeline.Window sig grid0 :=
  Pipeline.Window.ofSpec (Memref.whole main_arg0) S1x512x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v24) S16x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v25) S1x256x64x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S16x2048x64x64 : Shape := ⟨4, ![16, 2048, 64, 64]⟩
abbrev S256x2048 : Shape := ⟨2, ![256, 2048]⟩
abbrev S256 : Shape := ⟨1, ![256]⟩
abbrev S_ : Shape := ⟨0, ![]⟩
abbrev S16x2048 : Shape := ⟨2, ![16, 2048]⟩
abbrev S16x256 : Shape := ⟨2, ![16, 256]⟩
abbrev S16x32x8 : Shape := ⟨3, ![16, 32, 8]⟩
abbrev S16x32 : Shape := ⟨2, ![16, 32]⟩
abbrev S16x32x1 : Shape := ⟨3, ![16, 32, 1]⟩
abbrev S1x256 : Shape := ⟨2, ![1, 256]⟩
abbrev S16x256x1x1 : Shape := ⟨4, ![16, 256, 1, 1]⟩
abbrev S16x256x64x64 : Shape := ⟨4, ![16, 256, 64, 64]⟩

abbrev nBuf : Space → Nat
  | .hbm => 61
  | .vmem => 0
  | .smem => 0
  | _ => 0

abbrev bufTy : (tb : Table) → Fin (tcTables nBuf tb) → BufTy
  | .hbm, ⟨0, _⟩ => ⟨S16x2048x64x64, .f32⟩
  | .hbm, ⟨1, _⟩ => ⟨S256x2048, .f32⟩
  | .hbm, ⟨2, _⟩ => ⟨S256, .f32⟩
  | .hbm, ⟨3, _⟩ => ⟨S256, .f32⟩
  | .hbm, ⟨4, _⟩ => ⟨S_, .f32⟩
  | .hbm, ⟨5, _⟩ => ⟨S16x2048, .f32⟩
  | .hbm, ⟨6, _⟩ => ⟨S_, .f32⟩
  | .hbm, ⟨7, _⟩ => ⟨S16x2048, .f32⟩
  | .hbm, ⟨8, _⟩ => ⟨S16x2048, .f32⟩
  | .hbm, ⟨9, _⟩ => ⟨S16x256, .f32⟩
  | .hbm, ⟨10, _⟩ => ⟨S16x32x8, .f32⟩
  | .hbm, ⟨11, _⟩ => ⟨S_, .f32⟩
  | .hbm, ⟨12, _⟩ => ⟨S16x32, .f32⟩
  | .hbm, ⟨13, _⟩ => ⟨S16x32x1, .f32⟩
  | .hbm, ⟨14, _⟩ => ⟨S_, .f32⟩
  | .hbm, ⟨15, _⟩ => ⟨S16x32x1, .f32⟩
  | .hbm, ⟨16, _⟩ => ⟨S16x32x1, .f32⟩
  | .hbm, ⟨17, _⟩ => ⟨S_, .i32⟩
  | .hbm, ⟨18, _⟩ => ⟨S_, .f32⟩
  | .hbm, ⟨19, _⟩ => ⟨S16x32, .f32⟩
  | .hbm, ⟨20, _⟩ => ⟨S16x32x1, .f32⟩
  | .hbm, ⟨21, _⟩ => ⟨S_, .f32⟩
  | .hbm, ⟨22, _⟩ => ⟨S16x32x1, .f32⟩
  | .hbm, ⟨23, _⟩ => ⟨S16x32x1, .f32⟩
  | .hbm, ⟨24, _⟩ => ⟨S16x32x8, .f32⟩
  | .hbm, ⟨25, _⟩ => ⟨S16x32x8, .f32⟩
  | .hbm, ⟨26, _⟩ => ⟨S16x32x8, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S16x32, .f32⟩
  | .hbm, ⟨32, _⟩ => ⟨S16x32x1, .f32⟩
  | .hbm, ⟨33, _⟩ => ⟨S16x32x1, .f32⟩
  | .hbm, ⟨34, _⟩ => ⟨S16x32x1, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | .hbm, ⟨39, _⟩ => ⟨S16x32x1, .f32⟩
  | .hbm, ⟨40, _⟩ => ⟨S16x32x1, .f32⟩
  | .hbm, ⟨41, _⟩ => ⟨S16x32x8, .f32⟩
  | .hbm, ⟨42, _⟩ => ⟨S16x32x8, .f32⟩
  | .hbm, ⟨43, _⟩ => ⟨S_, .f32⟩
  | .hbm, ⟨44, _⟩ => ⟨S16x32x1, .f32⟩
  | .hbm, ⟨45, _⟩ => ⟨S16x32x1, .f32⟩
  | .hbm, ⟨46, _⟩ => ⟨S16x32x1, .f32⟩
  | .hbm, ⟨47, _⟩ => ⟨S16x32x8, .f32⟩
  | .hbm, ⟨48, _⟩ => ⟨S16x32x8, .f32⟩
  | .hbm, ⟨49, _⟩ => ⟨S16x256, .f32⟩
  | .hbm, ⟨50, _⟩ => ⟨S1x256, .f32⟩
  | .hbm, ⟨51, _⟩ => ⟨S16x256, .f32⟩
  | .hbm, ⟨52, _⟩ => ⟨S16x256, .f32⟩
  | .hbm, ⟨53, _⟩ => ⟨S1x256, .f32⟩
  | .hbm, ⟨54, _⟩ => ⟨S16x256, .f32⟩
  | .hbm, ⟨55, _⟩ => ⟨S16x256, .f32⟩
  | .hbm, ⟨56, _⟩ => ⟨S_, .f32⟩
  | .hbm, ⟨57, _⟩ => ⟨S16x256, .f32⟩
  | .hbm, ⟨58, _⟩ => ⟨S16x256, .f32⟩
  | .hbm, ⟨59, _⟩ => ⟨S16x256x1x1, .f32⟩
  | .hbm, ⟨60, _⟩ => ⟨S16x256x64x64, .f32⟩
  | _, _ => ⟨S16x2048x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_cst_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_cst_2 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_cst_3 : Ref sig .tc := ⟨.hbm, 35, rfl⟩
abbrev main_call0_v13 : Ref sig .tc := ⟨.hbm, 36, rfl⟩
abbrev main_call0_cst_4 : Ref sig .tc := ⟨.hbm, 37, rfl⟩
abbrev main_call0_call0_v0 : Ref sig .tc := ⟨.hbm, 38, rfl⟩
abbrev main_call0_call0_v1 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_cst_3 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_cst_4 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩

abbrev nD : Nat := 1
abbrev τ : Topo := Topo.v7x

variable {F : FTy → Type} [FloatOps F]

class Facts₀ : Prop where
  reducesTo_S16x2048x64x64_S16x2048_d2_3 : S16x2048x64x64.ReducesTo [2, 3] S16x2048
  h_S_ : 0 < S_.numel
  bcast_S_S16x2048 : S_.BroadcastsInDim S16x2048 (![] : Fin 0 → Fin S16x2048.rank)
  shapeCasts_S16x256_S16x32x8 : S16x256.ShapeCasts S16x32x8
  reducesTo_S16x32x8_S16x32_d2 : S16x32x8.ReducesTo [2] S16x32
  bcast_S16x32_S16x32x1_0_1 : S16x32.BroadcastsInDim S16x32x1 (![0, 1] : Fin 2 → Fin S16x32x1.rank)
  bcast_S_S16x32x1 : S_.BroadcastsInDim S16x32x1 (![] : Fin 0 → Fin S16x32x1.rank)
  bcast_S16x32x1_S16x32x8_0_1_2 : S16x32x1.BroadcastsInDim S16x32x8 (![0, 1, 2] : Fin 3 → Fin S16x32x8.rank)
  shapeCasts_S16x32x8_S16x256 : S16x32x8.ShapeCasts S16x256
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  bcast_S_S16x256 : S_.BroadcastsInDim S16x256 (![] : Fin 0 → Fin S16x256.rank)
  bcast_S16x256_S16x256x1x1_0_1 : S16x256.BroadcastsInDim S16x256x1x1 (![0, 1] : Fin 2 → Fin S16x256x1x1.rank)
  bcast_S16x256x1x1_S16x256x64x64_0_1_2_3 : S16x256x1x1.BroadcastsInDim S16x256x64x64 (![0, 1, 2, 3] : Fin 4 → Fin S16x256x64x64.rank)
  dot_S16x2048_S256x2048_S16x256_1_1_0_0_n_n_wf : DotDims.WF S16x2048 S256x2048 S16x256 [1] [1] [0] [0] [] []

variable [Facts₀]

def dot_S16x2048_S256x2048_S16x256_1_1_0_0_n_n : DotDims S16x2048 S256x2048 S16x256 where
  lhsContracting := [1]
  rhsContracting := [1]
  lhsNonContracting := [0]
  rhsNonContracting := [0]
  lhsBatch := []
  rhsBatch := []
  wf := dot_S16x2048_S256x2048_S16x256_1_1_0_0_n_n_wf

class Facts : Prop extends Facts₀ where

variable [Facts]
-- ==== Proof.KernelRun.lean ====
/-
  The idealized kernel program as ONE run that names its result.

  @main is five segments: the pooling region, three stretches of host operations (the 1x1 convolution as a
  matrix product, the group normalisation with its variance helper, the scale, shift and rectification) and the
  broadcasting region. The buffer contents at each boundary are a fold from the launch memory: a region leaves its
  arrays at what its write-backs leave and every other buffer as it was; a stretch of host operations leaves its
  fold. Every weakly fair execution terminates without a fault, and in the final state every unscoped buffer holds
  the last boundary's contents. Here that is read at the RESULT buffer as well as at the four arguments: the result
  array is what the broadcasting region's write-backs leave, and the arguments are as launched.
-/
import proofs.«119384_j32581621908016_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the last boundary the result buffer, which is the broadcasting region's output window, holds what that
    region's write-backs leave, the region entered from the contents the host operations leave. -/
theorem last_result (c : Dev nD) :
    W5 m ρ c (Proc.devRef .tc main_v25) = (dat1 (V4 m ρ) c).arrAt 1 cfg1.N :=
  W5_arr m ρ c 1

set_option backward.isDefEq.respectTransparency.types false in
/-- Every weakly fair execution of @main terminates, nothing faulting; the final state has the result buffer at the
    last boundary's contents and the four argument arrays as launched.

    The launch over the five segments: @main is the segments' run; the two regions are distinct pipelines; the
    launch resource is the staging cells' initial tokens; each core starts holding every unscoped buffer at the
    launch memory, its generator register and nothing owed, and ends holding every unscoped buffer at the last
    boundary's contents, which is read against the final state buffer by buffer. -/
theorem run : θ_run defs (onTc (τ := τ) (main (F := F))) ⟨m, fun _ => 0, ρ⟩ (fun r => ∀ c : Dev nD,
      r.2.mem ((c.tc : Thread nD τ).loc main_v25) = W5 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v25 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.KernelIdeal.Whole

end
-- ==== Proof.PoolPay.lean ====
/-
  The pooling kernel's arithmetic at one channel.

  The body loads a block of one image's 512 channels, each a 64 x 64 plane, sums every plane over its last axis and
  then over the remaining one, and multiplies by 2^-12. Read at channel `ch` of the stored [1, 1, 512] vector, at the
  ideal values, that is the nested sum over the plane's rows and columns of the block's entries, times the constant.
-/
import proofs.«119384_j32581621908016_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pool

open Cert.KernelIdeal Cert.KernelIdeal.Gen Idealize.ShloMosaic Idealize.ShloMosaic.ValueIdx
open scoped BigOperators

/-- Inserting a column coordinate into a rank-1 index gives the rank-2 index of the two coordinates. -/
theorem lift_cols (h : S512x64.Reduces [1] S512) (ch : Fin 512) (r : Fin 64) :
    h.lift (ix1 ch) r = ix2 ch r :=
  funext fun a => Fin.ext (by match a with | ⟨0, _⟩ => rfl | ⟨1, _⟩ => rfl)

/-- Inserting a last coordinate into a rank-2 index gives the rank-3 index of the three coordinates. -/
theorem lift_last (h : S512x64x64.Reduces [2] S512x64) (ch : Fin 512) (r q : Fin 64) :
    h.lift (ix2 ch r) q = ix3 ch r q :=
  funext fun a => Fin.ext (by match a with | ⟨0, _⟩ => rfl | ⟨1, _⟩ => rfl | ⟨2, _⟩ => rfl)

/-- A sum over the inserted column coordinate is the sum over the columns of the rank-2 entries. -/
theorem sum_rows (h : S512x64.Reduces [1] S512) (g : S512x64.Idx → EReal) (f : Fin 64 → EReal) (ch : Fin 512)
    (hg : ∀ r : Fin 64, g (ix2 ch r) = f r) :
    ∑ k : Fin (S512x64.size 1), g (h.lift (ix1 ch) k) = ∑ r : Fin 64, f r :=
  Finset.sum_congr rfl fun r _ => (congrArg g (lift_cols h ch r)).trans (hg r)

/-- A sum over the inserted last coordinate is the sum over the last axis of the rank-3 entries. -/
theorem sum_cols (h : S512x64x64.Reduces [2] S512x64) (g : S512x64x64.Idx → EReal) (f : Fin 64 → EReal)
    (ch : Fin 512) (r : Fin 64) (hg : ∀ q : Fin 64, g (ix3 ch r q) = f q) :
    ∑ k : Fin (S512x64x64.size 2), g (h.lift (ix2 ch r) k) = ∑ q : Fin 64, f q :=
  Finset.sum_congr rfl fun q _ => (congrArg g (lift_last h ch r q)).trans (hg q)

/-- The stored vector at channel `ch`: the plane's sum, rows outside and columns inside, times the constant. -/
theorem pay_apply (x0 : FVec Ideal S1x512x64x64 .f32) (u v : Fin 1) (ch : Fin 512) :
    k0_pay1 (F := Ideal) x0 (ix3 u v ch)
      = (∑ r : Fin 64, ∑ q : Fin 64, x0 (ix4 (0 : Fin 1) ch r q)) * Ideal.ofBits .f32 0x39800000#32 := by
  unfold k0_pay1
  refine (shapeCast_ab_1ab_apply _ _ u v ch).trans ?_
  refine congrArg (· * Ideal.ofBits .f32 0x39800000#32) ?_
  refine (shapeCast_a_1a_apply _ _ v ch).trans ?_
  refine (Ideal.multiReduction_add_single _ _ reduces_S512x64_S512 _ _ (ix1 ch)).trans ?_
  refine sum_rows reduces_S512x64_S512 _ _ ch fun r => ?_
  refine (Ideal.multiReduction_add_single _ _ reduces_S512x64x64_S512x64 _ _ (ix2 ch r)).trans ?_
  refine sum_cols reduces_S512x64x64_S512x64 _ _ ch r fun q => ?_
  exact shapeCast_1abc_abc_apply x0 _ ch r q

end Cert.KernelIdeal.Pool

end
-- ==== Proof.PoolValue.lean ====
/-
  The pooled array after the first region.

  The grid has 16 x 4 points; at point (b, k) the input block is image b's channels 512 k … 512 k + 511 (all 64 x 64
  positions) and the output block is the [1, 1, 512] slice at (b, 0, 512 k) of the [16, 1, 2048] result. Each point
  writes its block back and the 64 blocks tile the result, so the array ends holding, at (b, 0, ch), the sum of
  image b's channel ch over its rows and columns, times 2^-12 — one function of the input array as the region finds it.
-/
import proofs.«119384_j32581621908016_2_alg».proof.Proof.Gen.KernelIdeal.Frame
import proofs.«119384_j32581621908016_2_alg».proof.Proof.PoolPay

set_option maxRecDepth 16384

noncomputable section

namespace Cert.KernelIdeal.Pool

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The pooled array as a function of the input array: at (b, ·, ch) the plane's sum times the constant. -/
def pooled (x : S16x2048x64x64.Idx → EReal) : S16x1x2048.Idx → EReal := fun i =>
  (∑ r : Fin 64, ∑ q : Fin 64,
      x (ix4 (⟨(i 0).val, (i 0).isLt⟩ : Fin 16) (⟨(i 2).val, (i 2).isLt⟩ : Fin 2048) r q))
    * Ideal.ofBits .f32 0x39800000#32

/-- The payload at any index of the stored vector. -/
theorem pay_idx (x0 : FVec Ideal S1x512x64x64 .f32) (j : S1x1x512.Idx) :
    k0_pay1 (F := Ideal) x0 j
      = (∑ r : Fin 64, ∑ q : Fin 64, x0 (ix4 (0 : Fin 1) (⟨(j 2).val, (j 2).isLt⟩ : Fin 512) r q))
          * Ideal.ofBits .f32 0x39800000#32 := by
  conv_lhs => rw [eq_ix3 j]
  exact pay_apply x0 (j 0) (j 1) (j 2)

/-- The printed index maps, decided over the grid: the input block's image and channel-block indices are the output
    block's first and last, every other block index is 0, and the output's stay in their ranges. -/
theorem idx_facts : ∀ t : Fin cfg0.N,
    win0_0.index t (0 : Fin 4) = win0_1.index t (0 : Fin 3)
    ∧ win0_0.index t (1 : Fin 4) = win0_1.index t (2 : Fin 3)
    ∧ win0_0.index t (2 : Fin 4) = 0 ∧ win0_0.index t (3 : Fin 4) = 0
    ∧ win0_1.index t (1 : Fin 3) = 0
    ∧ win0_1.index t (0 : Fin 3) ≤ 15 ∧ win0_1.index t (2 : Fin 3) ≤ 3 :=
  (by decide +kernel : ∀ t : Fin grid0.N, _)

/-- Every (image, channel-block) pair is some point's output block. -/
theorem idx_onto : ∀ (q0 : Fin 16) (q2 : Fin 4), ∃ t : Fin cfg0.N, win0_1.index t = ![q0.val, 0, q2.val] :=
  (by decide +kernel : ∀ (q0 : Fin 16) (q2 : Fin 4), ∃ t : Fin grid0.N, win0_1.index t = ![q0.val, 0, q2.val])

/-- What point `t` writes back is block `t` of the pooled function of the input array. -/
theorem flushed_eq (c : Dev nD) (t : Fin cfg0.N) :
    (dat0 V c).flushed 1 t = ((cfg0.win 1).blk t).view.read (Elt Ideal) (pooled (V c main_arg0)) := by
  show (cfg0.win 1).cut (grid0.coords t) ((dat0 V c).after 1 t) = _
  rw [after0_1]
  unfold out0_1
  rw [View.canon_unit_zero hz3]
  simp only [View.ld_unit_zero (S := S1x512x64x64) hz4]
  obtain ⟨e0, e1, e2, e3, e4, e5, e6⟩ := idx_facts t
  funext j
  show k0_pay1 (F := Ideal) (iblk0 V c 0 t) j = pooled (V c main_arg0) (((cfg0.win 1).blk t).view.emb j)
  refine (pay_idx (iblk0 V c 0 t) j).trans ?_
  unfold pooled
  refine congrArg (· * Ideal.ofBits .f32 0x39800000#32) ?_
  refine Finset.sum_congr rfl fun r _ => Finset.sum_congr rfl fun q _ => ?_
  show V c main_arg0 (((cfg0.win 0).blk t).view.emb (ix4 (0 : Fin 1) (⟨(j 2).val, (j 2).isLt⟩ : Fin 512) r q)) = _
  refine congrArg (V c main_arg0) (funext fun a => Fin.ext ?_)
  have hj0 : (j 0).val < 1 := (j 0).isLt
  have hj2 : (j 2).val < 512 := (j 2).isLt
  match a with
  | ⟨0, _⟩ => show win0_0.index t (0 : Fin 4) * 1 + 1 * 0 = win0_1.index t (0 : Fin 3) * 1 + 1 * (j 0).val; omega
  | ⟨1, _⟩ => show win0_0.index t (1 : Fin 4) * 512 + 1 * (j 2).val = win0_1.index t (2 : Fin 3) * 512 + 1 * (j 2).val; omega
  | ⟨2, _⟩ => show win0_0.index t (2 : Fin 4) * 64 + 1 * r.val = r.val; omega
  | ⟨3, _⟩ => show win0_0.index t (3 : Fin 4) * 64 + 1 * q.val = q.val; omega

/-- An index of the result is in point `t`'s block iff each coordinate is in the block's range on its axis. -/
theorem mem_blk (t : Fin cfg0.N) (i : S16x1x2048.Idx) :
    i ∈ ((cfg0.win 1).blk t).view.set ↔ ∀ a : Fin 3, win0_1.index t a * S1x1x512.size a ≤ (i a).val ∧ (i a).val < win0_1.index t a * S1x1x512.size a + S1x1x512.size a := by
  show i ∈ ((View.whole main_v0).slice (win0_1.rect t)).set ↔ _
  rw [View.set_slice_whole, Rect.mem_set_unit]
  exact Iff.rfl

/-- The blocks tile the result: the point that covers (b, 0, ch) is the one at image b and channel block ch / 512. -/
theorem cover (i : S16x1x2048.Idx) :
    ∃ t : Fin cfg0.N, (cfg0.win 1).flush t = true ∧ i ∈ ((cfg0.win 1).blk t).view.set := by
  have hi0 : (i 0).val < 16 := (i 0).isLt
  have hi1 : (i 1).val < 1 := (i 1).isLt
  have hi2 : (i 2).val < 2048 := (i 2).isLt
  obtain ⟨t, ht⟩ := idx_onto ⟨(i 0).val, hi0⟩ ⟨(i 2).val / 512, by omega⟩
  have q0 : win0_1.index t (0 : Fin 3) = (i 0).val := congrFun ht 0
  have q1 : win0_1.index t (1 : Fin 3) = 0 := congrFun ht 1
  have q2 : win0_1.index t (2 : Fin 3) = (i 2).val / 512 := congrFun ht 2
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 1 ≤ (i 1).val ∧ (i 1).val < win0_1.index t (1 : Fin 3) * 1 + 1; omega
  | ⟨2, _⟩ => show win0_1.index t (2 : Fin 3) * 512 ≤ (i 2).val ∧ (i 2).val < win0_1.index t (2 : Fin 3) * 512 + 512; omega

/-- The result array after the region is the pooled function of the input array as the region finds it. -/
theorem final (c : Dev nD) : (dat0 V c).arrAt 1 cfg0.N = pooled (V c main_arg0) :=
  (dat0 V c).arrAt_eq_of_cover 1 (pooled (V c main_arg0)) (fun t _ => flushed_eq V c t) cover

end Cert.KernelIdeal.Pool

end
-- ==== Proof.BcastValue.lean ====
/-
  The broadcasting region, read as a value.

  The region runs over 16 grid points. At point b the body loads row b of the [16,256] input array (the input
  window's one block is the whole array, at every point), views the row as [256,1,1], repeats it along two axes of
  extent 64 and stores the [1,256,64,64] result whole into the output block; the output block of point b is slab b
  of the [16,256,64,64] output array. So every point writes back its own slab of ONE whole-array function of the
  input array,

      out[b, o, h, w] = in[b, o],

  the 16 slabs cover the output array, and after the region the output array is that function of the input array
  as the region found it. No step is arithmetic (loads, shape casts, a broadcast, a store), so the statement holds
  at every float instance.

  In order: the zero offsets of the store (`hz4`); the function (`spread`); what the body leaves in the output
  block is the stored value of the loaded row (`piece`); the stored value read at an index (`pay_apply`); the loaded
  row read at an index (`row_apply`); the index maps at the grid points (`idx_facts`); the input block is the whole
  array (`iblk_whole`); what a point writes back (`flushed_eq`); the slabs cover the array (`mem_blk`, `cover`);
  the array after the region (`final`).
-/
import proofs.«119384_j32581621908016_2_alg».proof.Proof.Gen.KernelIdeal.Frame
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.Spread

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen

variable {F : FTy → Type} [FloatOps F]

/-- The zero offsets of a rank-4 store, as a function. -/
theorem hz4 : (![0, 0, 0, 0] : Fin 4 → Nat) = fun _ => 0 := funext fun a => by fin_cases a <;> rfl

/-- out[b, o, h, w] = in[b, o]: the [16,256] array repeated over the two trailing axes of extent 64. -/
def spread (a : FVec F S16x256 .f32) : FVec F S16x256x64x64 .f32 :=
  fun i => a (ix2 (⟨(i 0).val, (i 0).isLt⟩ : Fin 16) (⟨(i 1).val, (i 1).isLt⟩ : Fin 256))

/-- What the body leaves in the output block: the stored value of the row it loads. -/
theorem piece (c : Dev nD) (i : grid1.Coords) (arg1 : Memref sig .tc .vmem S16x256 .f32) (harg1 : arg1.IsWhole)
    (arg2 : Memref sig .tc .vmem S1x256x64x64 .f32) (harg2 : arg2.IsWhole) (x0 : Vec F S16x256 .f32) :
    out1_A_1 c i arg1 harg1 arg2 harg2 x0
      = k1_pay1 (View.ld x0 (Rect.unit (s := S16x256) (k1_off1 i) S1x256.size (k1_off1_inb i))) := by
  unfold out1_A_1
  rw [View.read_writes_eq_canon _ _ _ (cover1_A_1 c i arg1 harg1 arg2 harg2 x0)]
  unfold kernelRun1_A
  dsimp only
  rw [View.canon_unit_zero hz4]
  simp only [View.readAt_eq_ld, harg1.read_unread]

/-- The stored value at (u, o, h, w) is the loaded row at (0, o). -/
theorem pay_apply (v : Vec F S1x256 .f32) (u : Fin 1) (o : Fin 256) (h w : Fin 64) :
    k1_pay1 v (ix4 u o h w) = v (ix2 (0 : Fin 1) o) := by
  unfold k1_pay1
  refine (shapeCast_abc_1abc_apply _ _ u o h w).trans ?_
  refine (broadcastTo_apply _ _ (ix3 o h w) (ix3 o (0 : Fin 1) (0 : Fin 1)) ?_).trans ?_
  · intro a
    match a with
    | ⟨0, _⟩ => exact (if_neg (show ¬((256 : Nat) = 1) by decide)).symm
    | ⟨1, _⟩ => exact (if_pos rfl).symm
    | ⟨2, _⟩ => exact (if_pos rfl).symm
  refine (congrFun (shapeCast_self _ _) _).trans ?_
  refine (shapeCast_apply _ _ (ix3 o (0 : Fin 1) (0 : Fin 1)) (ix1 o) ?_).trans ?_
  · rw [Shape.rowMajor_val_one, Shape.rowMajor_val_three]
    show o.val = (o.val * 1 + 0) * 1 + 0
    omega
  exact shapeCast_1a_a_apply _ _ o

/-- The row the body loads at grid coordinates i is row (i 0) of the buffer. -/
theorem row_apply (x0 : Vec F S16x256 .f32) (i : grid1.Coords) (b : Fin 16) (hb : (i 0).val = b.val) (o : Fin 256) :
    View.ld x0 (Rect.unit (s := S16x256) (k1_off1 i) S1x256.size (k1_off1_inb i)) (ix2 (0 : Fin 1) o)
      = x0 (ix2 b o) := by
  have e0 : k1_off1 i (0 : Fin 2) = (i 0).val := congrFun (k1_off1_eq i) 0
  have e1 : k1_off1 i (1 : Fin 2) = 0 := congrFun (k1_off1_eq i) 1
  show x0 ((Rect.unit (s := S16x256) (k1_off1 i) S1x256.size (k1_off1_inb i)).emb (ix2 (0 : Fin 1) o)) = _
  refine congrArg x0 (funext fun a => Fin.ext ?_)
  rw [Rect.emb_apply, Rect.off_unit, Rect.stride_unit]
  match a with
  | ⟨0, _⟩ => show k1_off1 i (0 : Fin 2) + 1 * 0 = b.val; omega
  | ⟨1, _⟩ => show k1_off1 i (1 : Fin 2) + 1 * o.val = o.val; omega

/-- The index maps at each of the 16 grid points: the input window stays on block (0, 0); the output window is on
    block (t, 0, 0, 0); the grid coordinate is the point's number. -/
theorem idx_facts : ∀ t : Fin cfg1.N, win1_0.index t (0 : Fin 2) = 0 ∧ win1_0.index t (1 : Fin 2) = 0
    ∧ win1_1.index t (0 : Fin 4) = t.val ∧ win1_1.index t (1 : Fin 4) = 0
    ∧ win1_1.index t (2 : Fin 4) = 0 ∧ win1_1.index t (3 : Fin 4) = 0
    ∧ (grid1.coords t (0 : Fin 1)).val = t.val :=
  (by decide +kernel : ∀ t : Fin grid1.N, _)

variable (V : (c : Dev nD) → (b : Ref sig .tc) → Buf (Elt F) ((c : Thread nD τ).loc b))

/-- The input window's one block is the whole [16,256] array. -/
theorem iblk_whole (c : Dev nD) (t : Fin cfg1.N) (y : S16x256.Idx) :
    (iblk1 V c 0 t : Vec F S16x256 .f32) y = (V c main_v24 : S16x256.Idx → Elt F .f32) y := by
  obtain ⟨e0, e1, -⟩ := idx_facts t
  unfold iblk1
  rw [View.read_apply]
  show V c main_v24 (((cfg1.win 0).blk t).view.emb y) = V c main_v24 y
  refine congrArg (V c main_v24) (funext fun a => Fin.ext ?_)
  match a with
  | ⟨0, _⟩ => show win1_0.index t (0 : Fin 2) * 16 + 1 * (y 0).val = (y 0).val; rw [e0]; omega
  | ⟨1, _⟩ => show win1_0.index t (1 : Fin 2) * 256 + 1 * (y 1).val = (y 1).val; rw [e1]; omega

/-- What point t writes back is block t of the repeated array. -/
theorem flushed_eq (c : Dev nD) (t : Fin cfg1.N) :
    (dat1 V c).flushed 1 t = ((cfg1.win 1).blk t).view.read (Elt F) (spread (V c main_v24)) := by
  show (cfg1.win 1).cut (grid1.coords t) ((dat1 V c).after 1 t) = _
  rw [after1_1]
  unfold outsAt1
  rw [piece]
  obtain ⟨-, -, e2, e3, e4, e5, e6⟩ := idx_facts t
  have hN : cfg1.N = 16 := N_1
  funext j
  have h0 : (j 0).val < 1 := (j 0).isLt
  have h1 : (j 1).val < 256 := (j 1).isLt
  have h2 : (j 2).val < 64 := (j 2).isLt
  have h3 : (j 3).val < 64 := (j 3).isLt
  have hx : (cfg1.win 1).xinj (grid1.coords t) j
      = ix4 (⟨(j 0).val, h0⟩ : Fin 1) (⟨(j 1).val, h1⟩ : Fin 256) (⟨(j 2).val, h2⟩ : Fin 64) (⟨(j 3).val, h3⟩ : Fin 64) :=
    funext fun a => Fin.ext (match a with | ⟨0, _⟩ => rfl | ⟨1, _⟩ => rfl | ⟨2, _⟩ => rfl | ⟨3, _⟩ => rfl)
  have hb : (grid1.coords t 0).val < 16 := by omega
  refine (congrArg (k1_pay1 (View.ld (iblk1 V c 0 t) (Rect.unit (s := S16x256) (k1_off1 (grid1.coords t)) S1x256.size (k1_off1_inb (grid1.coords t))))) hx).trans ?_
  refine (pay_apply _ (⟨(j 0).val, h0⟩ : Fin 1) (⟨(j 1).val, h1⟩ : Fin 256) (⟨(j 2).val, h2⟩ : Fin 64) (⟨(j 3).val, h3⟩ : Fin 64)).trans ?_
  refine (row_apply (iblk1 V c 0 t) (grid1.coords t) (⟨(grid1.coords t 0).val, hb⟩ : Fin 16) rfl (⟨(j 1).val, h1⟩ : Fin 256)).trans ?_
  refine (iblk_whole V c t (ix2 (⟨(grid1.coords t 0).val, hb⟩ : Fin 16) (⟨(j 1).val, h1⟩ : Fin 256))).trans ?_
  rw [View.read_apply]
  show V c main_v24 _ = V c main_v24 _
  refine congrArg (V c main_v24) (funext fun a => Fin.ext ?_)
  match a with
  | ⟨0, _⟩ => show (grid1.coords t (0 : Fin 1)).val = win1_1.index t (0 : Fin 4) * 1 + 1 * (j 0).val; rw [e6, e2]; omega
  | ⟨1, _⟩ => show (j 1).val = win1_1.index t (1 : Fin 4) * 256 + 1 * (j 1).val; rw [e3]; omega

/-- An index of the [16,256,64,64] array is in point t's block iff each coordinate is in the block's range on its axis. -/
theorem mem_blk (t : Fin cfg1.N) (i : S16x256x64x64.Idx) :
    i ∈ ((cfg1.win 1).blk t).view.set ↔ ∀ a : Fin 4, win1_1.index t a * S1x256x64x64.size a ≤ (i a).val
      ∧ (i a).val < win1_1.index t a * S1x256x64x64.size a + S1x256x64x64.size a := by
  show i ∈ ((View.whole main_v25).slice (win1_1.rect t)).set ↔ _
  rw [View.set_slice_whole, Rect.mem_set_unit]
  exact Iff.rfl

/-- Every index (b, o, h, w) of the array is in the block of point b, which is written back. -/
theorem cover (i : S16x256x64x64.Idx) :
    ∃ t : Fin cfg1.N, (cfg1.win 1).flush t = true ∧ i ∈ ((cfg1.win 1).blk t).view.set := by
  have hN : cfg1.N = 16 := N_1
  have hi0 : (i 0).val < 16 := (i 0).isLt
  have hi1 : (i 1).val < 256 := (i 1).isLt
  have hi2 : (i 2).val < 64 := (i 2).isLt
  have hi3 : (i 3).val < 64 := (i 3).isLt
  obtain ⟨t, ht⟩ : ∃ t : Fin cfg1.N, t.val = (i 0).val := ⟨⟨(i 0).val, by omega⟩, rfl⟩
  obtain ⟨-, -, e2, e3, e4, e5, -⟩ := idx_facts t
  refine ⟨t, flush1_1 t, ?_⟩
  rw [mem_blk]
  intro a
  match a with
  | ⟨0, _⟩ => show win1_1.index t (0 : Fin 4) * 1 ≤ (i 0).val ∧ (i 0).val < win1_1.index t (0 : Fin 4) * 1 + 1; omega
  | ⟨1, _⟩ => show win1_1.index t (1 : Fin 4) * 256 ≤ (i 1).val ∧ (i 1).val < win1_1.index t (1 : Fin 4) * 256 + 256; omega
  | ⟨2, _⟩ => show win1_1.index t (2 : Fin 4) * 64 ≤ (i 2).val ∧ (i 2).val < win1_1.index t (2 : Fin 4) * 64 + 64; omega
  | ⟨3, _⟩ => show win1_1.index t (3 : Fin 4) * 64 ≤ (i 3).val ∧ (i 3).val < win1_1.index t (3 : Fin 4) * 64 + 64; omega

/-- After the region the [16,256,64,64] array is the [16,256] array it was entered with, repeated over the two
    trailing axes: out[b, o, h, w] = in[b, o]. -/
theorem final (c : Dev nD) : (dat1 V c).arrAt 1 cfg1.N = spread (V c main_v24) :=
  (dat1 V c).arrAt_eq_of_cover 1 (spread (V c main_v24)) (fun t _ => flushed_eq V c t) cover

end Cert.KernelIdeal.Spread
end
-- ==== Proof.Shared.lean ====
/-
  What both programs do with the pooled array, as ONE function, and the last broadcast as one index map.

  From the pooled [16, 2048] array `p`, the weights `w` and the two per-channel vectors: the 1x1 convolution is the
  matrix product of `p` with `w` contracted over the 2048 input channels; the 256 outputs of an image are taken as 32
  groups of 8; each group is centred by its mean (its sum over 8) and scaled by the reciprocal square root of its
  variance (the mean of the squared deviations, through the helper that divides by 8 - ddof with ddof = 0 and selects
  a not-a-number constant were that divisor not positive) plus a small constant; the result is multiplied by the scale
  vector, shifted by the shift vector and rectified at zero. Neither program's certificate ever opens this function:
  the two programs apply it to equal arguments. The output repeats each of the [16, 256] values over a 64 x 64 plane.

  The shape facts the operations take are decided here, at the literal shapes, so that the function mentions
  neither program.
-/
import Idealize.ShloMosaic.PureOps.Vector
import Idealize.ShloMosaic.PureOps.Ideal
import Idealize.ShloMosaic.Lib.ValueIdx

noncomputable section

namespace Cert.Shared

open Idealize.ShloMosaic

variable {F : FTy → Type} [FloatOps F]

abbrev A_ : Shape := ⟨0, ![]⟩
abbrev A16x2048 : Shape := ⟨2, ![16, 2048]⟩
abbrev A256x2048 : Shape := ⟨2, ![256, 2048]⟩
abbrev A256 : Shape := ⟨1, ![256]⟩
abbrev A1x256 : Shape := ⟨2, ![1, 256]⟩
abbrev A16x256 : Shape := ⟨2, ![16, 256]⟩
abbrev A16x32x8 : Shape := ⟨3, ![16, 32, 8]⟩
abbrev A16x32 : Shape := ⟨2, ![16, 32]⟩
abbrev A16x32x1 : Shape := ⟨3, ![16, 32, 1]⟩
abbrev A16x256x64x64 : Shape := ⟨4, ![16, 256, 64, 64]⟩

theorem casts_groups : A16x256.ShapeCasts A16x32x8 := by decide
theorem casts_flat : A16x32x8.ShapeCasts A16x256 := by decide
theorem reduces_group : A16x32x8.ReducesTo [2] A16x32 := by decide
theorem scalar_pos : 0 < A_.numel := by decide
theorem keep_axis : A16x32.BroadcastsInDim A16x32x1 (![0, 1] : Fin 2 → Fin A16x32x1.rank) := by decide
theorem splat_group : A_.BroadcastsInDim A16x32x1 (![] : Fin 0 → Fin A16x32x1.rank) := by decide
theorem over_group : A16x32x1.BroadcastsInDim A16x32x8 (![0, 1, 2] : Fin 3 → Fin A16x32x8.rank) := by decide
theorem as_row : A256.BroadcastsInDim A1x256 (![1] : Fin 1 → Fin A1x256.rank) := by decide
theorem over_images : A1x256.BroadcastsInDim A16x256 (![0, 1] : Fin 2 → Fin A16x256.rank) := by decide
theorem splat_flat : A_.BroadcastsInDim A16x256 (![] : Fin 0 → Fin A16x256.rank) := by decide
theorem product_wf : DotDims.WF A16x2048 A256x2048 A16x256 [1] [1] [0] [0] [] [] := by decide

/-- The matrix product's dimension numbers: both operands contracted over their second axis. -/
def product : DotDims A16x2048 A256x2048 A16x256 where
  lhsContracting := [1]
  rhsContracting := [1]
  lhsNonContracting := [0]
  rhsNonContracting := [0]
  lhsBatch := []
  rhsBatch := []
  wf := product_wf

/-- The convolution's outputs, 32 groups of 8 per image. -/
def grouped (p : FVec F A16x2048 .f32) (w : FVec F A256x2048 .f32) : FVec F A16x32x8 .f32 :=
  shapeCast A16x32x8 (Host.dotGeneral product none p w) casts_groups

/-- A group's mean: its sum over the 8 members divided by 8. -/
def groupMean (g : FVec F A16x32x8 .f32) : FVec F A16x32x1 .f32 :=
  Host.divf
    (broadcastInDim A16x32x1 ![0, 1] keep_axis (Host.reduceAdd g (constant A_ .f32 0x00000000#32) reduces_group scalar_pos))
    (broadcastInDim A16x32x1 ![] splat_group (constant A_ .f32 0x41000000#32))

/-- The variance helper's divisor, 8 - ddof with ddof the integer 0. -/
def divisor : FVec F A_ .f32 :=
  subf (constant A_ .f32 0x41000000#32) (sitofp .f32 (constantI A_ 32 0#32))

/-- A group's variance as the helper computes it: the mean of the squared deviations from the group's mean, divided
    by the divisor, selected against a not-a-number constant by whether the divisor is positive. -/
def groupVar (g : FVec F A16x32x8 .f32) : FVec F A16x32x1 .f32 :=
  select
    (broadcastInDim A16x32x1 ![] splat_group (cmpf .ogt (divisor (F := F)) (constant A_ .f32 0x00000000#32)))
    (Host.divf
      (broadcastInDim A16x32x1 ![0, 1] keep_axis
        (Host.reduceAdd
          (mulf (subf g (broadcastInDim A16x32x8 ![0, 1, 2] over_group (groupMean g)))
            (subf g (broadcastInDim A16x32x8 ![0, 1, 2] over_group (groupMean g))))
          (constant A_ .f32 0x00000000#32) reduces_group scalar_pos))
      (broadcastInDim A16x32x1 ![] splat_group (divisor (F := F))))
    (broadcastInDim A16x32x1 ![] splat_group (constant A_ .f32 0x7FC00000#32))

/-- Centre, scale by the reciprocal root of variance plus epsilon, flatten, apply the per-channel scale and shift,
    rectify. -/
def normed (g : FVec F A16x32x8 .f32) (scale shift : FVec F A256 .f32) : FVec F A16x256 .f32 :=
  maximumf
    (addf
      (mulf
        (shapeCast A16x256
          (mulf (subf g (broadcastInDim A16x32x8 ![0, 1, 2] over_group (groupMean g)))
            (broadcastInDim A16x32x8 ![0, 1, 2] over_group
              (Host.rsqrt (addf (groupVar g) (broadcastInDim A16x32x1 ![] splat_group (constant A_ .f32 0x3727C5AC#32))))))
          casts_flat)
        (broadcastInDim A16x256 ![0, 1] over_images (broadcastInDim A1x256 ![1] as_row scale)))
      (broadcastInDim A16x256 ![0, 1] over_images (broadcastInDim A1x256 ![1] as_row shift)))
    (broadcastInDim A16x256 ![] splat_flat (constant A_ .f32 0x00000000#32))

/-- The whole chain from the pooled array. -/
def head (p : FVec F A16x2048 .f32) (w : FVec F A256x2048 .f32) (scale shift : FVec F A256 .f32) : FVec F A16x256 .f32 :=
  normed (grouped p w) scale shift

/-- Each [16, 256] value repeated over its 64 x 64 plane. -/
def spread {α : Type} (a : A16x256.Idx → α) : A16x256x64x64.Idx → α :=
  fun i => a (ValueIdx.ix2 (⟨(i 0).val, (i 0).isLt⟩ : Fin 16) (⟨(i 1).val, (i 1).isLt⟩ : Fin 256))

end Cert.Shared

end
-- ==== Proof.GlueK.lean ====
/-
  The kernel program's host operations between its two regions are the shared chain.

  Between the pooling region and the broadcasting region @main runs three stretches of host operations. Whatever the
  buffers hold when the first stretch starts, the buffer the second region reads ends at the shared chain
  (Shared.lean) of: the pooled [16, 1, 2048] array flattened to [16, 2048], the weights, the scale and the shift.
  Each operation rewrites its own result buffer from its operands' buffers; composing them along the data flow gives
  the chain, by computation.
-/
import proofs.«119384_j32581621908016_2_alg».proof.Proof.Gen.KernelIdeal.Launch
import proofs.«119384_j32581621908016_2_alg».proof.Proof.Shared
import Idealize.ShloMosaic.Lib.StableHlo.Run

noncomputable section

namespace Cert.KernelIdeal.Chain

open Cert.KernelIdeal Cert.KernelIdeal.Gen Idealize.ShloMosaic Idealize.ShloMosaic.TcCoe Idealize.SL.Sem Idealize.ShloMosaic.StableHlo

variable {F : FTy → Type} [FloatOps F]

set_option maxRecDepth 16384 in
set_option maxHeartbeats 1000000 in
/-- After the three stretches, from any contents `V`, the second region's input buffer holds the shared chain of the
    first region's result (flattened) and the three other arguments as `V` has them. -/
theorem tail_eq (V : Valuation τ sig (Elt F)) :
    (after hostOps1_2 (after hostOps1_1 (after hostOps1 V)) (Proc.devRef .tc main_v24) : (⟨S16x256, .f32⟩ : BufTy).Contents (Elt F))
      = Cert.Shared.head (F := F)
          (shapeCast S16x2048 (V (Proc.devRef .tc main_v0) : (⟨S16x1x2048, .f32⟩ : BufTy).Contents (Elt F)) shapeCasts_S16x1x2048_S16x2048)
          (V (Proc.devRef .tc main_arg1)) (V (Proc.devRef .tc main_arg2)) (V (Proc.devRef .tc main_arg3)) := by
  after_results_simp
  rfl

end Cert.KernelIdeal.Chain

end
-- ==== Proof.KernelValue.lean ====
/-
  The idealized kernel program's result, as one function of its arguments.

  Reading the run's boundaries back from the result: the result array is what the broadcasting region leaves, which
  is the repetition over the spatial extent of that region's input; that input is the shared chain of what the three
  host stretches found — the first region's result flattened, and the other three arguments, which neither region
  nor any host operation writes; and the first region's result is the pooled function of the input array as launched.
-/
import proofs.«119384_j32581621908016_2_alg».proof.Proof.KernelRun
import proofs.«119384_j32581621908016_2_alg».proof.Proof.PoolValue
import proofs.«119384_j32581621908016_2_alg».proof.Proof.BcastValue
import proofs.«119384_j32581621908016_2_alg».proof.Proof.GlueK

set_option maxRecDepth 16384

noncomputable section

namespace Cert.KernelIdeal.Whole

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- After the first region its result buffer holds the pooled function of the input array as launched. -/
theorem pooled_at (c : Dev nD) :
    W1 m ρ c (Proc.devRef .tc main_v0) = Pool.pooled (m ((c : Thread nD τ).loc main_arg0)) :=
  (W1_arr m ρ c 1).trans (Pool.final (V0 m ρ) c)

/-- The first region writes none of the other three arguments. -/
theorem arg1_at (c : Dev nD) : W1 m ρ c (Proc.devRef .tc main_arg1) = m ((c : Thread nD τ).loc main_arg1) :=
  W1_of_ne m ρ c main_arg1 (by decide)
theorem arg2_at (c : Dev nD) : W1 m ρ c (Proc.devRef .tc main_arg2) = m ((c : Thread nD τ).loc main_arg2) :=
  W1_of_ne m ρ c main_arg2 (by decide)
theorem arg3_at (c : Dev nD) : W1 m ρ c (Proc.devRef .tc main_arg3) = m ((c : Thread nD τ).loc main_arg3) :=
  W1_of_ne m ρ c main_arg3 (by decide)

/-- The result of @main as a function of the launch memory's four arguments. -/
def result (c : Dev nD) : S16x256x64x64.Idx → EReal :=
  Cert.Shared.spread (Cert.Shared.head (F := Ideal)
    (shapeCast S16x2048 (Pool.pooled (m ((c : Thread nD τ).loc main_arg0))) shapeCasts_S16x1x2048_S16x2048)
    (m ((c : Thread nD τ).loc main_arg1)) (m ((c : Thread nD τ).loc main_arg2)) (m ((c : Thread nD τ).loc main_arg3)))

/-- The second region's input buffer, when that region is entered, holds the shared chain of the pooled array and
    the arguments as launched. -/
theorem chain_at (c : Dev nD) :
    (W4 m ρ c (Proc.devRef .tc main_v24) : (⟨S16x256, .f32⟩ : BufTy).Contents (Elt Ideal))
      = Cert.Shared.head (F := Ideal)
          (shapeCast S16x2048 (Pool.pooled (m ((c : Thread nD τ).loc main_arg0))) shapeCasts_S16x1x2048_S16x2048)
          (m ((c : Thread nD τ).loc main_arg1)) (m ((c : Thread nD τ).loc main_arg2)) (m ((c : Thread nD τ).loc main_arg3)) := by
  refine (Chain.tail_eq (F := Ideal) (W1 m ρ c)).trans ?_
  rw [pooled_at m ρ c, arg1_at m ρ c, arg2_at m ρ c, arg3_at m ρ c]

/-- At the last boundary the result buffer holds `result`. -/
theorem value (c : Dev nD) : W5 m ρ c (Proc.devRef .tc main_v25) = result m c :=
  (last_result m ρ c).trans ((Spread.final (V4 m ρ) c).trans (congrArg (Cert.Shared.spread (α := EReal)) (chain_at m ρ c)))

/-- Every weakly fair execution of @main terminates without a fault, with the result buffer at `result` of the
    arguments as launched and the arguments unchanged. -/
theorem run_value : θ_run defs (onTc (τ := τ) (main (F := Ideal))) ⟨m, fun _ => 0, ρ⟩ (fun r => ∀ c : Dev nD,
      r.2.mem ((c.tc : Thread nD τ).loc main_v25) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (value m ρ c), (h c).2⟩) (run m ρ)

end Cert.KernelIdeal.Whole

end
-- ==== Proof.RefRun.lean ====
/-
  The reference program's run, read back.

  The reference is a straight line of host operations: the spatial mean (a sum over the two spatial axes divided by
  4096), the 1x1 convolution as a matrix product, the group normalisation — the group mean, the variance through
  an outlined helper (whose own guard against a non-positive divisor is a second outlined helper, a select) —,
  the scale, shift and rectification, and two broadcasts back to the spatial extent. Listed here operation by
  operation, each helper's operations at its call site over that call's own buffers, @main IS the sequence of the
  list; so every weakly fair execution terminates and every buffer ends at the list's fold over the launch memory.
-/
import proofs.«119384_j32581621908016_2_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The contents of an f32 tensor of shape `S`. -/
abbrev T32 (F : FTy → Type) [FloatOps F] (S : Shape) : Type := (⟨S, .f32⟩ : BufTy).Contents (Elt F)

/-- @main's 57 operations in order: 14 up to the variance helper's call, the helper's 20 with its select helper's 3
    at the end, then 20 more. -/
abbrev ops : List (HloOp τ sig (Elt F)) :=
  [ nullary main_cst (constant S_ .f32 0x00000000#32),
    binary main_arg0 main_cst main_v0 ((fun x v => Host.reduceAdd x v reducesTo_S16x2048x64x64_S16x2048_d2_3 h_S_) : T32 F S16x2048x64x64 → T32 F S_ → T32 F S16x2048),
    nullary main_cst_0 (constant S_ .f32 0x45800000#32),
    unary main_cst_0 main_v1 (broadcastInDim S16x2048 ![] bcast_S_S16x2048 : T32 F S_ → T32 F S16x2048),
    binary main_v0 main_v1 main_v2 (Host.divf : T32 F S16x2048 → T32 F S16x2048 → T32 F S16x2048),
    binary main_v2 main_arg1 main_v3 ((fun l r => Host.dotGeneral dot_S16x2048_S256x2048_S16x256_1_1_0_0_n_n none l r) : T32 F S16x2048 → T32 F S256x2048 → T32 F S16x256),
    reshape main_v3 main_v4 rfl shapeCasts_S16x256_S16x32x8,
    nullary main_cst_1 (constant S_ .f32 0x00000000#32),
    binary main_v4 main_cst_1 main_v5 ((fun x v => Host.reduceAdd x v reducesTo_S16x32x8_S16x32_d2 h_S_) : T32 F S16x32x8 → T32 F S_ → T32 F S16x32),
    unary main_v5 main_v6 (broadcastInDim S16x32x1 ![0, 1] bcast_S16x32_S16x32x1_0_1 : T32 F S16x32 → T32 F S16x32x1),
    nullary main_cst_2 (constant S_ .f32 0x41000000#32),
    unary main_cst_2 main_v7 (broadcastInDim S16x32x1 ![] bcast_S_S16x32x1 : T32 F S_ → T32 F S16x32x1),
    binary main_v6 main_v7 main_v8 (Host.divf : T32 F S16x32x1 → T32 F S16x32x1 → T32 F S16x32x1),
    nullary main_c (constantI S_ 32 0#32),
    TRef.nullary main_call0.cst (constant S_ .f32 0x00000000#32),
    TRef.binary (.of main_v4 : TRef sig ⟨S16x32x8, .f32⟩) main_call0.cst main_call0.v0 (fun x v => Host.reduceAdd x v reducesTo_S16x32x8_S16x32_d2 h_S_),
    TRef.unary main_call0.v0 main_call0.v1 (broadcastInDim S16x32x1 ![0, 1] bcast_S16x32_S16x32x1_0_1),
    TRef.nullary main_call0.cst_0 (constant S_ .f32 0x41000000#32),
    TRef.unary main_call0.cst_0 main_call0.v2 (broadcastInDim S16x32x1 ![] bcast_S_S16x32x1),
    TRef.binary main_call0.v1 main_call0.v2 main_call0.v3 Host.divf,
    TRef.unary main_call0.v3 main_call0.v4 (broadcastInDim S16x32x8 ![0, 1, 2] bcast_S16x32x1_S16x32x8_0_1_2),
    TRef.binary (.of main_v4 : TRef sig ⟨S16x32x8, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x41000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S16x32x8_S16x32_d2 h_S_),
    TRef.unary main_call0.v9 main_call0.v10 (broadcastInDim S16x32x1 ![0, 1] bcast_S16x32_S16x32x1_0_1),
    TRef.unary main_call0.v8 main_call0.v11 (broadcastInDim S16x32x1 ![] bcast_S_S16x32x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S16x32x1 ![] bcast_S_S16x32x1),
    TRef.ternary main_call0.v13 main_call0.v12 main_call0.call0.v1 main_call0.call0.v2 (fun p a b => select (broadcastInDim S16x32x1 ![] bcast_S_S16x32x1 p) a b),
    unary main_v8 main_v10 (broadcastInDim S16x32x8 ![0, 1, 2] bcast_S16x32x1_S16x32x8_0_1_2 : T32 F S16x32x1 → T32 F S16x32x8),
    binary main_v4 main_v10 main_v11 (subf : T32 F S16x32x8 → T32 F S16x32x8 → T32 F S16x32x8),
    nullary main_cst_3 (constant S_ .f32 0x3727C5AC#32),
    unary main_cst_3 main_v12 (broadcastInDim S16x32x1 ![] bcast_S_S16x32x1 : T32 F S_ → T32 F S16x32x1),
    binary main_v9 main_v12 main_v13 (addf : T32 F S16x32x1 → T32 F S16x32x1 → T32 F S16x32x1),
    unary main_v13 main_v14 (Host.rsqrt : T32 F S16x32x1 → T32 F S16x32x1),
    unary main_v14 main_v15 (broadcastInDim S16x32x8 ![0, 1, 2] bcast_S16x32x1_S16x32x8_0_1_2 : T32 F S16x32x1 → T32 F S16x32x8),
    binary main_v11 main_v15 main_v16 (mulf : T32 F S16x32x8 → T32 F S16x32x8 → T32 F S16x32x8),
    reshape main_v16 main_v17 rfl shapeCasts_S16x32x8_S16x256,
    unary main_arg2 main_v18 (broadcastInDim S1x256 ![1] bcast_S256_S1x256_1 : T32 F S256 → T32 F S1x256),
    unary main_v18 main_v19 (broadcastInDim S16x256 ![0, 1] bcast_S1x256_S16x256_0_1 : T32 F S1x256 → T32 F S16x256),
    binary main_v17 main_v19 main_v20 (mulf : T32 F S16x256 → T32 F S16x256 → T32 F S16x256),
    unary main_arg3 main_v21 (broadcastInDim S1x256 ![1] bcast_S256_S1x256_1 : T32 F S256 → T32 F S1x256),
    unary main_v21 main_v22 (broadcastInDim S16x256 ![0, 1] bcast_S1x256_S16x256_0_1 : T32 F S1x256 → T32 F S16x256),
    binary main_v20 main_v22 main_v23 (addf : T32 F S16x256 → T32 F S16x256 → T32 F S16x256),
    nullary main_cst_4 (constant S_ .f32 0x00000000#32),
    unary main_cst_4 main_v24 (broadcastInDim S16x256 ![] bcast_S_S16x256 : T32 F S_ → T32 F S16x256),
    binary main_v23 main_v24 main_v25 (maximumf : T32 F S16x256 → T32 F S16x256 → T32 F S16x256),
    unary main_v25 main_v26 (broadcastInDim S16x256x1x1 ![0, 1] bcast_S16x256_S16x256x1x1_0_1 : T32 F S16x256 → T32 F S16x256x1x1),
    unary main_v26 main_v27 (broadcastInDim S16x256x64x64 ![0, 1, 2, 3] bcast_S16x256x1x1_S16x256x64x64_0_1_2_3 : T32 F S16x256x1x1 → T32 F S16x256x64x64) ]

set_option maxRecDepth 4096 in
/-- @main is that straight line: the helpers' definitions unfolded at their calls, both sides are one chain of
    host steps once sequencing is re-associated. -/
theorem main_eq (c : Dev nD) : main (F := F) c = seq ops := by
  simp only [main, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., binary_bufs_sub .., nullary_bufs_sub .., unary_bufs_sub .., binary_bufs_sub .., binary_bufs_sub ..,
    reshape_bufs_sub .., nullary_bufs_sub .., binary_bufs_sub .., unary_bufs_sub .., nullary_bufs_sub .., unary_bufs_sub ..,
    binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., reshape_bufs_sub .., unary_bufs_sub .., unary_bufs_sub .., binary_bufs_sub ..,
    unary_bufs_sub .., unary_bufs_sub .., binary_bufs_sub .., nullary_bufs_sub .., unary_bufs_sub .., binary_bufs_sub ..,
    unary_bufs_sub .., unary_bufs_sub ..⟩

/-- From any memory with zero counters every weakly fair execution of @main terminates, and every buffer ends at
    the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.Line

end
-- ==== Proof.GlueR.lean ====
/-
  The reference's result is the shared chain of its spatial mean, repeated over the spatial extent.

  Composing the reference's 57 operations along the data flow: the result buffer holds the two final broadcasts of
  the shared chain (Shared.lean) applied to the spatial mean — the sum over both spatial axes from the zero word,
  divided by the splat of the word 4096 —, the weights, the scale and the shift, all as launched. The two broadcasts
  [16, 256] -> [16, 256, 1, 1] -> [16, 256, 64, 64] repeat each value over its plane.
-/
import proofs.«119384_j32581621908016_2_alg».proof.Proof.RefRun
import proofs.«119384_j32581621908016_2_alg».proof.Proof.Shared
import Idealize.ShloMosaic.Lib.Pipeline.Value

noncomputable section

namespace Cert.ReferenceIdeal.Chain

open Cert.ReferenceIdeal Cert.ReferenceIdeal.Gen Idealize.ShloMosaic Idealize.ShloMosaic.TcCoe Idealize.SL.Sem Idealize.ShloMosaic.StableHlo
open Idealize.ShloMosaic.ValueIdx

variable {F : FTy → Type} [FloatOps F]

/-- The reference's spatial mean of the input array. -/
def mean (x : FVec F S16x2048x64x64 .f32) : FVec F S16x2048 .f32 :=
  Host.divf (Host.reduceAdd x (constant S_ .f32 0x00000000#32) reducesTo_S16x2048x64x64_S16x2048_d2_3 h_S_)
    (broadcastInDim S16x2048 ![] bcast_S_S16x2048 (constant S_ .f32 0x45800000#32))

/-- The reference's two final broadcasts. -/
def upsample {α : Type} (a : S16x256.Idx → α) : S16x256x64x64.Idx → α :=
  broadcastInDim S16x256x64x64 ![0, 1, 2, 3] bcast_S16x256x1x1_S16x256x64x64_0_1_2_3
    (broadcastInDim S16x256x1x1 ![0, 1] bcast_S16x256_S16x256x1x1_0_1 a)

/-- The two broadcasts repeat each [16, 256] value over its 64 x 64 plane. -/
theorem upsample_eq {α : Type} (a : S16x256.Idx → α) : upsample a = Cert.Shared.spread a := by
  funext i
  unfold upsample Cert.Shared.spread
  refine (broadcastInDim_apply _ _ _ i
    (ix4 (⟨(i 0).val, (i 0).isLt⟩ : Fin 16) (⟨(i 1).val, (i 1).isLt⟩ : Fin 256) (0 : Fin 1) (0 : Fin 1)) ?_).trans ?_
  · intro a
    match a with
    | ⟨0, _⟩ => exact (if_neg (show ¬((16 : Nat) = 1) by decide)).symm
    | ⟨1, _⟩ => exact (if_neg (show ¬((256 : Nat) = 1) by decide)).symm
    | ⟨2, _⟩ => exact (if_pos rfl).symm
    | ⟨3, _⟩ => exact (if_pos rfl).symm
  refine broadcastInDim_apply _ _ _ _ _ ?_
  intro a
  match a with
  | ⟨0, _⟩ => exact (if_neg (show ¬((16 : Nat) = 1) by decide)).symm
  | ⟨1, _⟩ => exact (if_neg (show ¬((256 : Nat) = 1) by decide)).symm

set_option maxRecDepth 16384 in
set_option maxHeartbeats 2000000 in
/-- After the operations, from any contents `V`, the result buffer holds the broadcasts of the shared chain of the
    mean of the input array and the three other arguments as `V` has them. -/
theorem out_eq (V : Valuation τ sig (Elt F)) :
    (after (Line.ops (F := F)) V (Proc.devRef .tc main_v27) : (⟨S16x256x64x64, .f32⟩ : BufTy).Contents (Elt F))
      = upsample (Cert.Shared.head (F := F) (mean (V (Proc.devRef .tc main_arg0)))
          (V (Proc.devRef .tc main_arg1)) (V (Proc.devRef .tc main_arg2)) (V (Proc.devRef .tc main_arg3))) := by
  after_results_simp
  rfl

/-- No operation writes an argument's buffer. -/
theorem arg0_kept (V : Valuation τ sig (Elt F)) : after (Line.ops (F := F)) V (Proc.devRef .tc main_arg0) = V (Proc.devRef .tc main_arg0) := by
  after_results_simp
theorem arg1_kept (V : Valuation τ sig (Elt F)) : after (Line.ops (F := F)) V (Proc.devRef .tc main_arg1) = V (Proc.devRef .tc main_arg1) := by
  after_results_simp
theorem arg2_kept (V : Valuation τ sig (Elt F)) : after (Line.ops (F := F)) V (Proc.devRef .tc main_arg2) = V (Proc.devRef .tc main_arg2) := by
  after_results_simp
theorem arg3_kept (V : Valuation τ sig (Elt F)) : after (Line.ops (F := F)) V (Proc.devRef .tc main_arg3) = V (Proc.devRef .tc main_arg3) := by
  after_results_simp

end Cert.ReferenceIdeal.Chain

end
-- ==== Proof.RefValue.lean ====
/-
  The idealized reference's result, as one function of its arguments.

  Every buffer ends at the fold of the 57 operations over the launch memory (RefRun.lean); at the result buffer the
  fold is the shared chain of the spatial mean, repeated over the spatial extent (GlueR.lean), and at each argument's
  buffer it is what was launched.
-/
import proofs.«119384_j32581621908016_2_alg».proof.Proof.GlueR

noncomputable section

namespace Cert.ReferenceIdeal.Whole

open Idealize.ShloMosaic Idealize.ShloMosaic.TcCoe Idealize.SL.Sem Idealize.ShloMosaic.StableHlo
open Cert.ReferenceIdeal Cert.ReferenceIdeal.Gen

variable (m : (ℓ : Loc nD τ sig) → Buf (Elt Ideal) ℓ) (ρ : Dev nD → PrngReg)

/-- The result of @main as a function of the launch memory's four arguments. -/
def result (c : Dev nD) : S16x256x64x64.Idx → EReal :=
  Cert.Shared.spread (Cert.Shared.head (F := Ideal)
    (Chain.mean (F := Ideal) (m ((c : Thread nD τ).loc main_arg0)))
    (m ((c : Thread nD τ).loc main_arg1)) (m ((c : Thread nD τ).loc main_arg2)) (m ((c : Thread nD τ).loc main_arg3)))

/-- Every weakly fair execution of @main terminates without a fault, with the result buffer at `result` of the
    arguments as launched and the arguments unchanged. -/
theorem run_value : θ_run defs (onTc (τ := τ) (main (F := Ideal))) ⟨m, fun _ => 0, ρ⟩ (fun r => ∀ c : Dev nD,
      r.2.mem ((c.tc : Thread nD τ).loc main_v27) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨(h c main_v27).trans ((Chain.out_eq (F := Ideal) (launchContents m c)).trans (Chain.upsample_eq _)),
       (h c main_arg0).trans (Chain.arg0_kept (F := Ideal) (launchContents m c)),
       (h c main_arg1).trans (Chain.arg1_kept (F := Ideal) (launchContents m c)),
       (h c main_arg2).trans (Chain.arg2_kept (F := Ideal) (launchContents m c)),
       (h c main_arg3).trans (Chain.arg3_kept (F := Ideal) (launchContents m c))⟩)
    (Line.run_all (F := Ideal) m ρ)

end Cert.ReferenceIdeal.Whole

end
-- ==== Proof.Scale.lean ====
/-
  The two float constants that scale the spatial sum, as the extended reals their patterns denote, and the law
  that joins them.

  The kernel multiplies a block's sum by the word 0x39800000, which is 2^-12 = 1/4096 exactly; the reference divides
  the array's sum by the word 0x45800000, which is 2^12 = 4096 exactly. On the extended reals dividing by a nonzero
  real is multiplying by its reciprocal — at the infinities too — so the two scalings are one function of the sum.
-/
import Idealize.ShloMosaic.PureOps.Ideal

noncomputable section

namespace Cert.Mean

open Idealize.ShloMosaic

/-- The word 0x45800000 (sign 0, exponent field 139, fraction 0) denotes the real 4096. -/
theorem ofBits_4096 : Ideal.ofBits .f32 0x45800000#32 = ((4096 : ℝ) : EReal) := by
  simp [Ideal.ofBits, Ideal.ieee, -EReal.coe_mul]; norm_num

/-- The word 0x39800000 (sign 0, exponent field 115, fraction 0) denotes the real 1/4096. -/
theorem ofBits_inv_4096 : Ideal.ofBits .f32 0x39800000#32 = ((1 / 4096 : ℝ) : EReal) := by
  simp [Ideal.ofBits, Ideal.ieee, -EReal.coe_mul]; norm_num

/-- The zero word denotes 0. -/
theorem ofBits_zero : Ideal.ofBits .f32 0x00000000#32 = 0 := by
  simp [Ideal.ofBits, Ideal.ieee]

/-- Scaling a sum by the kernel's constant is dividing it by the reference's, for every extended real. -/
theorem scale_eq (s : EReal) :
    s * Ideal.ofBits .f32 0x39800000#32 = Ideal.div s (Ideal.ofBits .f32 0x45800000#32) := by
  rw [ofBits_inv_4096, ofBits_4096, Ideal.div_coe (by norm_num : (4096 : ℝ) ≠ 0)]

end Cert.Mean

end
-- ==== Proof.MeanLaw.lean ====
/-
  The spatial mean as the reference computes it, read at one image and channel.

  The host reduces a [16, 2048, 64, 64] array over its two last axes at once: at (b, ch) it adds, to the initial
  value, every entry whose first two coordinates are (b, ch). Those entries are exactly the 64 x 64 entries
  (b, ch, r, q), each once, so the sum is the nested sum over rows r and columns q: addition of extended reals is
  commutative and associative, so no finiteness is needed to regroup it. Divided by 4096 this is the nested sum times
  1/4096 (Scale.lean), the kernel's form.
-/
import Idealize.ShloMosaic.PureOps.Ideal.Laws
import Idealize.ShloMosaic.Lib.ValueIdx
import proofs.«119384_j32581621908016_2_alg».proof.Proof.Scale

noncomputable section

namespace Cert.Mean

open Idealize.ShloMosaic Idealize.ShloMosaic.ValueIdx
open scoped BigOperators

abbrev Images : Shape := ⟨4, ![16, 2048, 64, 64]⟩
abbrev Pooled : Shape := ⟨2, ![16, 2048]⟩

/-- Dropping the two spatial coordinates of an index gives (b, ch) exactly when its first two coordinates are. -/
theorem drop_eq_iff (h : Images.ReducesTo [2, 3] Pooled) (k : Images.Idx) (b : Fin 16) (ch : Fin 2048) :
    h.drop k = ix2 b ch ↔ (k 0).val = b.val ∧ (k 1).val = ch.val := by
  have d0 : (h.drop k 0 : Nat) = k 0 := Shape.ReducesTo.drop_apply_val_of_eq h k 0 0
  have d1 : (h.drop k 1 : Nat) = k 1 := Shape.ReducesTo.drop_apply_val_of_eq h k 1 1
  constructor
  · intro e
    refine ⟨?_, ?_⟩
    · rw [← d0, e]
    · rw [← d1, e]
  · rintro ⟨e0, e1⟩
    funext a
    apply Fin.ext
    match a with
    | ⟨0, _⟩ => exact d0.trans e0
    | ⟨1, _⟩ => exact d1.trans e1

/-- The host's sum over both spatial axes at (b, ch): the initial value plus the nested sum over rows and columns. -/
theorem host_plane_sum (h : Images.ReducesTo [2, 3] Pooled) (x : Images.Idx → EReal) (init : EReal)
    (b : Fin 16) (ch : Fin 2048) :
    Ideal.hostReduceAdd h x init (ix2 b ch) = init + ∑ r : Fin 64, ∑ q : Fin 64, x (ix4 b ch r q) := by
  unfold Ideal.hostReduceAdd
  refine congrArg (init + ·) ?_
  rw [← Finset.sum_product']
  refine Finset.sum_bij'
    (fun k _ => ((⟨(k 2).val, (k 2).isLt⟩ : Fin 64), (⟨(k 3).val, (k 3).isLt⟩ : Fin 64)))
    (fun p _ => ix4 b ch p.1 p.2) ?_ ?_ ?_ ?_ ?_
  · intro k _
    exact Finset.mem_product.mpr ⟨Finset.mem_univ _, Finset.mem_univ _⟩
  · intro p _
    exact Finset.mem_filter.mpr ⟨Finset.mem_univ _, (drop_eq_iff h _ b ch).mpr ⟨rfl, rfl⟩⟩
  · intro k hk
    obtain ⟨e0, e1⟩ := (drop_eq_iff h k b ch).mp (Finset.mem_filter.mp hk).2
    funext a
    apply Fin.ext
    match a with
    | ⟨0, _⟩ => exact e0.symm
    | ⟨1, _⟩ => exact e1.symm
    | ⟨2, _⟩ => rfl
    | ⟨3, _⟩ => rfl
  · intro p _
    rfl
  · intro k hk
    obtain ⟨e0, e1⟩ := (drop_eq_iff h k b ch).mp (Finset.mem_filter.mp hk).2
    refine congrArg x (funext fun a => Fin.ext ?_)
    match a with
    | ⟨0, _⟩ => exact e0
    | ⟨1, _⟩ => exact e1
    | ⟨2, _⟩ => rfl
    | ⟨3, _⟩ => rfl

/-- The reference's mean at (b, ch) — the sum from the zero word, divided by the word 4096 — is the nested sum times
    the word 2^-12. -/
theorem mean_eq (h : Images.ReducesTo [2, 3] Pooled) (x : Images.Idx → EReal) (b : Fin 16) (ch : Fin 2048) :
    Ideal.div (Ideal.hostReduceAdd h x (Ideal.ofBits .f32 0x00000000#32) (ix2 b ch)) (Ideal.ofBits .f32 0x45800000#32)
      = (∑ r : Fin 64, ∑ q : Fin 64, x (ix4 b ch r q)) * Ideal.ofBits .f32 0x39800000#32 := by
  rw [host_plane_sum, ofBits_zero, zero_add]
  exact (scale_eq _).symm

end Cert.Mean

end
-- ==== Proof.Bridge.lean ====
/-
  The two programs pool the input array to the same [16, 2048] array.

  The kernel's first region leaves, at (b, 0, ch), the plane's nested sum times 2^-12 (PoolValue.lean); flattened to
  [16, 2048] that is the entry at (b, ch). The reference's mean at (b, ch) is the sum over both spatial axes from
  zero, divided by 4096, which is the same nested sum times 2^-12 (MeanLaw.lean). So the two arrays are equal,
  index by index, for every input array of extended reals.
-/
import proofs.«119384_j32581621908016_2_alg».proof.Proof.PoolValue
import proofs.«119384_j32581621908016_2_alg».proof.Proof.GlueR
import proofs.«119384_j32581621908016_2_alg».proof.Proof.MeanLaw

noncomputable section

namespace Cert.Bridge

open Idealize.ShloMosaic Idealize.ShloMosaic.ValueIdx
open scoped BigOperators

/-- The kernel's pooled array, flattened, is the reference's mean. -/
theorem pooled_is_mean (x : Cert.Mean.Images.Idx → EReal) :
    shapeCast Cert.KernelIdeal.S16x2048 (Cert.KernelIdeal.Pool.pooled x) Cert.KernelIdeal.Gen.shapeCasts_S16x1x2048_S16x2048
      = Cert.ReferenceIdeal.Chain.mean (F := Ideal) x := by
  funext i
  obtain ⟨b, ch, rfl⟩ : ∃ (b : Fin 16) (ch : Fin 2048), i = ix2 b ch := ⟨i 0, i 1, eq_ix2 i⟩
  refine (shapeCast_apply _ _ (ix2 b ch) (ix3 b (0 : Fin 1) ch) ?_).trans ?_
  · rw [Shape.rowMajor_val_three, Shape.rowMajor_val_two]
    show (b.val * 1 + 0) * 2048 + ch.val = b.val * 2048 + ch.val
    omega
  calc Cert.KernelIdeal.Pool.pooled x (ix3 b (0 : Fin 1) ch)
      = (∑ r : Fin 64, ∑ q : Fin 64, x (ix4 b ch r q)) * Ideal.ofBits .f32 0x39800000#32 := rfl
    _ = Ideal.div (Ideal.hostReduceAdd Cert.ReferenceIdeal.Gen.reducesTo_S16x2048x64x64_S16x2048_d2_3 x
          (Ideal.ofBits .f32 0x00000000#32) (ix2 b ch)) (Ideal.ofBits .f32 0x45800000#32) :=
        (Cert.Mean.mean_eq Cert.ReferenceIdeal.Gen.reducesTo_S16x2048x64x64_S16x2048_d2_3 x b ch).symm
    _ = Cert.ReferenceIdeal.Chain.mean (F := Ideal) x (ix2 b ch) := rfl

end Cert.Bridge

end
-- ==== Proof.lean ====
/-
  The kernel pools, projects, normalises and broadcasts exactly as its reference does, over the extended reals.

  Both programs take an image batch x : [16, 2048, 64, 64], weights W : [256, 2048] and per-channel vectors of
  length 256, and return [16, 256, 64, 64].

  * The pooled array. The kernel's first region sums every 64 x 64 plane over its columns and then over its rows and
    multiplies by the constant 2^-12; the reference sums each plane over both axes at once and divides by 4096. A
    finite sum of extended reals can be regrouped freely, and dividing by 4096 is multiplying by 1/4096 on every
    extended real, so the two pooled arrays are equal index by index (Bridge.lean).
  * The chain. Both programs then apply the same operations — the matrix product with W, the group normalisation,
    the scale, the shift and the rectification — to the pooled array and the other arguments: one function, never
    opened (Shared.lean; GlueK.lean and GlueR.lean identify each program's operations with it).
  * The output. The kernel's second region writes, for image b, the [256] row b of the chain's result over every
    position of a 64 x 64 plane; the reference broadcasts the [16, 256] result over the two spatial axes. Both are
    out[b, o, h, w] = hn[b, o] (BcastValue.lean; GlueR.lean).

  So from memories that agree on the four arguments both programs terminate with equal result arrays and unchanged
  arguments. No step uses that the inputs are finite. The ideal pass rewrote nothing in the kernel, so the
  idealization claim has no conjunct. The two kernel programs' frames are the generated ones; the reference's frame
  is its run with the result dropped.
-/
import proofs.«119384_j32581621908016_2_alg».proof.Defs
import proofs.«119384_j32581621908016_2_alg».proof.Proof.Gen.Kernel
import proofs.«119384_j32581621908016_2_alg».proof.Proof.Gen.Kernel.Frame
import proofs.«119384_j32581621908016_2_alg».proof.Proof.Gen.KernelIdeal
import proofs.«119384_j32581621908016_2_alg».proof.Proof.Gen.KernelIdeal.Frame
import proofs.«119384_j32581621908016_2_alg».proof.Proof.Gen.ReferenceIdeal
import proofs.«119384_j32581621908016_2_alg».proof.Proof.Gen.Pre_finite_inputs
import proofs.«119384_j32581621908016_2_alg».proof.Proof.KernelValue
import proofs.«119384_j32581621908016_2_alg».proof.Proof.RefValue
import proofs.«119384_j32581621908016_2_alg».proof.Proof.Bridge

noncomputable section

namespace Cert.Proof

open Idealize.ShloMosaic Idealize.SL.Sem

/-- The word-level kernel program terminates without a fault and leaves its arguments unchanged. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- So does the idealized reference: its run with the result dropped. -/
theorem frame_reference_ideal : Cert.frame_ReferenceIdeal := fun m ρ _ =>
  (θ_run Cert.ReferenceIdeal.defs _ _).mono (fun _ h c => (h c).2) (Cert.ReferenceIdeal.Whole.run_value m ρ)

/-- The ideal pass rewrote no operation. -/
theorem preserves : Cert.preserves_Kernel_KernelIdeal := trivial

/-- From memories agreeing on the arguments the two idealized programs end with equal results: the kernel's at the
    repeated chain of its pooled array, the reference's at the repeated chain of its mean, and the pooled array is
    the mean. -/
theorem algebraic : Cert.algebraic_KernelIdeal_ReferenceIdeal := by
  intro m ρ m' ρ' _ hagree
  refine ⟨fun c => Cert.KernelIdeal.Whole.result m c, Cert.KernelIdeal.Whole.run_value m ρ, ?_⟩
  refine (θ_run Cert.ReferenceIdeal.defs _ _).mono (fun _ h c => ⟨(h c).1.trans ?_, (h c).2⟩)
    (Cert.ReferenceIdeal.Whole.run_value m' ρ')
  unfold Cert.ReferenceIdeal.Whole.result Cert.KernelIdeal.Whole.result
  rw [(hagree c).1, (hagree c).2.1, (hagree c).2.2.1, (hagree c).2.2.2, ← Cert.Bridge.pooled_is_mean]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
